-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) (main_arg6 : FVec F S64x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 86
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x64, .f32⟩
  | .hbm, ⟨67, _⟩ => ⟨S1700000x1, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .f32⟩
  | .hbm, ⟨77, _⟩ => ⟨S1700000x64, .f32⟩
  | .hbm, ⟨78, _⟩ => ⟨S1700000x64, .f32⟩
  | .hbm, ⟨79, _⟩ => ⟨S_, .f32⟩
  | .hbm, ⟨80, _⟩ => ⟨S100000x64, .f32⟩
  | .hbm, ⟨81, _⟩ => ⟨S1700000x1, .i32⟩
  | .hbm, ⟨82, _⟩ => ⟨S100000x64, .f32⟩
  | .hbm, ⟨83, _⟩ => ⟨S1x64, .f32⟩
  | .hbm, ⟨84, _⟩ => ⟨S1x1, .f32⟩
  | .hbm, ⟨85, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S5000x1, .f32⟩
  | .local _ .vmem, ⟨17, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S1_S1x1 : S1.ShapeCasts S1x1
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S100000x1.size a
  hwx2_4 : ∀ i : grid2.Coords, EltTy.bits .f32 = 32 ∨ (Rect.block (s := S100000x1) S5000x1.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S5000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S64x1, .f32⟩
  | 7 => ⟨S1, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S100000x128, .f32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S1700000x1, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x64, .f32⟩
  | 72 => ⟨S_, .f32⟩
  | 73 => ⟨S1700000, .f32⟩
  | 74 => ⟨S_, .f32⟩
  | 75 => ⟨S100000, .f32⟩
  | 76 => ⟨S1700000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S1700000, .f32⟩
  | 105 => ⟨S1700000x1, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x64, .f32⟩
  | 115 => ⟨S1700000x64, .f32⟩
  | 116 => ⟨S1700000x64, .f32⟩
  | 117 => ⟨S_, .f32⟩
  | 118 => ⟨S100000x64, .f32⟩
  | 119 => ⟨S1700000x1, .i32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S100000x1, .f32⟩
  | _ => ⟨S100000x128, .f32⟩

abbrev hbmTy0_1 (i : Nat) : BufTy := match i % 128 with
  | 0 => ⟨S1x1, .f32⟩
  | 1 => ⟨S100000x1, .f32⟩
  | 2 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_17 : Ref sig .tc := ⟨.hbm, 106, rfl⟩
abbrev main_v73 : Ref sig .tc := ⟨.hbm, 107, rfl⟩
abbrev main_v74 : Ref sig .tc := ⟨.hbm, 108, rfl⟩
abbrev main_c_18 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.GraphOps.lean ====
/-
  The graph side of the network, as named functions of whole arrays.
  The edge list arrives as a 2 × E integer array (row 0 the source of each edge, row 1 its destination); every node
  gets a self loop appended. A node's degree is the number of edges that end in it; an edge `s → d` weighs
  `deg(s)^(-1/2) · deg(d)^(-1/2)` (zero where a degree is not positive). One round of message passing sends the
  feature row of every edge's source, scaled by the edge's weight, to the edge's destination, and sums what arrives at
  each node. An index below zero counts from the end (`wrapped`), as array indexing does; what an index outside the
  array reads or writes is whatever the gather and scatter primitives say, and is never opened here: both programs
  apply the same primitives to the same index arrays.
  The network is three dense layers with a round of message passing after each of the first two.
-/
import proofs.«126257_j14542759264928_1_alg».proof.ReferenceIdeal
import proofs.«126257_j14542759264928_1_alg».proof.Proof.Gen.ReferenceIdeal

noncomputable section

namespace Cert.Graph

open Cert.ReferenceIdeal Cert.ReferenceIdeal.Gen Idealize.ShloMosaic

variable {F : FTy → Type} [FloatOps F]

/-- The source of every edge, the self loops last. -/
def srcOf (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The destination of every edge, the self loops last. -/
def dstOf (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- An index list as a one-column matrix of index vectors. -/
def column (ix : IVec S1700000 32) : IVec S1700000x1 32 :=
  broadcastInDim S1700000x1 ![0] bcast_S1700000_S1700000x1_0 ix

/-- The same with an index below zero counted from the end. -/
def wrapped (ix : IVec S1700000 32) : IVec S1700000x1 32 :=
  broadcastInDim S1700000x1 ![0] bcast_S1700000_S1700000x1_0 (select (cmpi .slt ix (broadcastInDim S1700000 ![] bcast_S_S1700000 (constantI S_ 32 0#32))) (addi ix (broadcastInDim S1700000 ![] bcast_S_S1700000 (constantI S_ 32 100000#32))) ix)

/-- How many edges end in each node. -/
def degree (dst : IVec S1700000 32) : FVec F S100000 .f32 :=
  Host.scatterAdd scatter_S100000_S1700000x1_S1700000_n_0_0_1 (broadcastInDim S100000 ![] bcast_S_S100000 (constant S_ .f32 0x00000000#32)) (column dst) (broadcastInDim S1700000 ![] bcast_S_S1700000 (constant S_ .f32 0x3F800000#32))

/-- `degree ^ (-1/2)` where the degree is positive, zero elsewhere. -/
def invSqrtDegree (dst : IVec S1700000 32) : FVec F S100000 .f32 :=
  select (cmpf (F := F) .ogt (degree dst) (broadcastInDim S100000 ![] bcast_S_S100000 (constant S_ .f32 0x00000000#32))) (Host.rsqrt (degree dst)) (broadcastInDim S100000 ![] bcast_S_S100000 (id (constant S_ .f32 0x00000000#32)))

/-- The weight of every edge. -/
def edgeWeight (src dst : IVec S1700000 32) : FVec F S1700000 .f32 :=
  mulf (Host.gather gather_S100000_S1700000x1_S1700000_n_0_n_n_0_1_1 (invSqrtDegree dst) (wrapped src)) (Host.gather gather_S100000_S1700000x1_S1700000_n_0_n_n_0_1_1 (invSqrtDegree dst) (wrapped dst))

/-- One round of message passing on 128 features per node. -/
def aggregate128 (wt : FVec F S1700000 .f32) (src dst : IVec S1700000 32) (h : FVec F S100000x128 .f32) : FVec F S100000x128 .f32 :=
  Host.scatterAdd scatter_S100000x128_S1700000x1_S1700000x128_1_0_0_1 (broadcastInDim S100000x128 ![] bcast_S_S100000x128 (constant S_ .f32 0x00000000#32)) (column dst) (mulf (broadcastInDim S1700000x128 ![0, 1] bcast_S1700000x1_S1700000x128_0_1 (broadcastInDim S1700000x1 ![0] bcast_S1700000_S1700000x1_0 wt)) (Host.gather gather_S100000x128_S1700000x1_S1700000x128_1_0_n_n_0_1_1128 h (wrapped src)))

/-- One round of message passing on 64 features per node. -/
def aggregate64 (wt : FVec F S1700000 .f32) (src dst : IVec S1700000 32) (h : FVec F S100000x64 .f32) : FVec F S100000x64 .f32 :=
  Host.scatterAdd scatter_S100000x64_S1700000x1_S1700000x64_1_0_0_1 (broadcastInDim S100000x64 ![] bcast_S_S100000x64 (constant S_ .f32 0x00000000#32)) (column dst) (mulf (broadcastInDim S1700000x64 ![0, 1] bcast_S1700000x1_S1700000x64_0_1 (broadcastInDim S1700000x1 ![0] bcast_S1700000_S1700000x1_0 wt)) (Host.gather gather_S100000x64_S1700000x1_S1700000x64_1_0_n_n_0_1_164 h (wrapped src)))

/-- A bias on every row, then cut at zero from below (128 features). -/
def activated128 (a : FVec F S100000x128 .f32) (b : FVec F S128 .f32) : FVec F S100000x128 .f32 :=
  maximumf (addf a (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- A bias on every row, then cut at zero from below (64 features). -/
def activated64 (a : FVec F S100000x64 .f32) (b : FVec F S64 .f32) : FVec F S100000x64 .f32 :=
  maximumf (addf a (broadcastInDim S100000x64 ![0, 1] bcast_S1x64_S100000x64_0_1 (broadcastInDim S1x64 ![1] bcast_S64_S1x64_1 b))) (broadcastInDim S100000x64 ![] bcast_S_S100000x64 (constant S_ .f32 0x00000000#32))

/-- The first layer's features after message passing, as a function of the layer's dense output `h`. -/
def hidden1 (e : IVec S2x1600000 32) (h : FVec F S100000x128 .f32) : FVec F S100000x128 .f32 :=
  aggregate128 (edgeWeight (srcOf e) (dstOf e)) (srcOf e) (dstOf e) h

/-- The second layer's features after message passing, as a function of the layer's dense output `h`. -/
def hidden2 (e : IVec S2x1600000 32) (h : FVec F S100000x64 .f32) : FVec F S100000x64 .f32 :=
  aggregate64 (edgeWeight (srcOf e) (dstOf e)) (srcOf e) (dstOf e) h

/-- The whole network on the host: dense, pass, bias and cut, dense, pass, bias and cut, dense, output bias. -/
def network (x : FVec F S100000x128 .f32) (e : IVec S2x1600000 32) (w1 : FVec F S128x128 .f32) (b1 : FVec F S128 .f32)
    (w2 : FVec F S128x64 .f32) (b2 : FVec F S64 .f32) (wo : FVec F S64x1 .f32) (bo : FVec F S1 .f32) : FVec F S100000x1 .f32 :=
  addf (Host.dotGeneral dot_S100000x64_S64x1_S100000x1_1_0_0_1_n_n none
      (activated64 (hidden2 e (Host.dotGeneral dot_S100000x128_S128x64_S100000x64_1_0_0_1_n_n none
        (activated128 (hidden1 e (Host.dotGeneral dot_S100000x128_S128x128_S100000x128_1_0_0_1_n_n none x w1)) b1) w2)) b2) wo)
    (broadcastInDim S100000x1 ![0, 1] bcast_S1x1_S100000x1_0_1 (broadcastInDim S1x1 ![1] bcast_S1_S1x1_1 bo))

end Cert.Graph

end
-- ==== Proof.RefValue.lean ====
/-
  The reference's run ends with its result at the network of the arguments: the long composed term its run states is,
  operation for operation, the named functions of `Graph` put together (the edge weights, which the reference computes
  once per layer, are the same function of the edge list both times).
-/
import proofs.«126257_j14542759264928_1_alg».proof.Proof.RefRunP
import proofs.«126257_j14542759264928_1_alg».proof.Proof.GraphOps

noncomputable section

namespace Cert.ReferenceIdeal.RefValue

open Cert.ReferenceIdeal Cert.ReferenceIdeal.Gen Idealize.ShloMosaic Idealize.ShloMosaic.TcCoe Idealize.SL.Sem Cert.Graph

variable {F : FTy → Type} [FloatOps F]

set_option maxRecDepth 16384 in
/-- The term the reference's run states for its result is the network of the argument arrays. -/
theorem result_eq (m : (ℓ : Loc nD τ sig) → Buf (Elt F) ℓ) (c : Dev nD) :
    Cert.ReferenceIdeal.ValueP.res_main_v92 m c
      = network (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v92 network hidden1 hidden2 activated64 activated128 aggregate64 aggregate128 edgeWeight invSqrtDegree degree wrapped column srcOf dstOf
  rfl

end Cert.ReferenceIdeal.RefValue

end
-- ==== Proof.KernelRun.lean ====
/-
  The run of the idealized kernel's whole program with EVERY buffer's final contents named.
  The program is eight segments: three stretches of host operations, the first dense layer's launch, a stretch (the
  first round of message passing), the second layer's launch, a stretch (the second round), the third layer's launch.
  Segment by segment the buffers' contents are a fold from the launch memory: a stretch applies its operations, a
  launch replaces each of its arrays by what its write-backs leave. Every weakly fair execution terminates, nothing
  faulting, and at the end every buffer that is not scoped to a launch holds the fold's last value.
-/
import proofs.«126257_j14542759264928_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core at
    the last value of the fold of buffer contents through the program's segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The result buffer and the eight arguments read off that run: the result at the fold's last value, the
    arguments as launched. -/
theorem run_result : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)
    (run_all m ρ)

end Cert.KernelIdeal.WholeRun

end
-- ==== Proof.Layers.lean ====
/-
  The three dense layers of the network as functions of whole arrays, over the extended reals.
  A dense layer sends a matrix of node features (one row per node) to its product with a weight matrix: entry
  `(r, j)` of the product is `∑ k, a (r, k) · w (k, j)`. The second and third layers first add a bias to every row
  (the bias arrives as a one-row matrix) and cut the result at zero from below; the third also adds an output bias
  (a one-by-one matrix) to every entry of its single column.
-/
import Idealize.ShloMosaic.PureOps.Ideal
import Idealize.ShloMosaic.Lib.ValueIdx

noncomputable section

open scoped BigOperators

namespace Cert.Layers

open Idealize.ShloMosaic Idealize.ShloMosaic.ValueIdx

/-- Features times weights: entry `(r, j)` is `∑ k, x (r, k) · w (k, j)`. -/
def dense {R K C : Nat} (x : (⟨2, ![R, K]⟩ : Shape).Idx → EReal) (w : (⟨2, ![K, C]⟩ : Shape).Idx → EReal) :
    (⟨2, ![R, C]⟩ : Shape).Idx → EReal :=
  fun i => ∑ k : Fin K, x (ix2 (n0 := R) (i 0) k) * w (ix2 (n1 := C) k (i 1))

/-- A row bias added and the result cut at `z` from below, entry by entry (`z` is the float zero). -/
def rectified {R K : Nat} (z : EReal) (a : (⟨2, ![R, K]⟩ : Shape).Idx → EReal) (b : (⟨2, ![1, K]⟩ : Shape).Idx → EReal) :
    (⟨2, ![R, K]⟩ : Shape).Idx → EReal :=
  fun i => max (a i + b (ix2 (n0 := 1) 0 (i 1))) z

/-- Bias, cut at zero, then the dense layer. -/
def rectifiedDense {R K C : Nat} (z : EReal) (a : (⟨2, ![R, K]⟩ : Shape).Idx → EReal) (b : (⟨2, ![1, K]⟩ : Shape).Idx → EReal)
    (w : (⟨2, ![K, C]⟩ : Shape).Idx → EReal) : (⟨2, ![R, C]⟩ : Shape).Idx → EReal :=
  dense (rectified z a b) w

/-- The last layer: the same, plus the output bias on every entry. -/
def rectifiedDenseOut {R K C : Nat} (z : EReal) (a : (⟨2, ![R, K]⟩ : Shape).Idx → EReal) (b : (⟨2, ![1, K]⟩ : Shape).Idx → EReal)
    (w : (⟨2, ![K, C]⟩ : Shape).Idx → EReal) (o : (⟨2, ![1, 1]⟩ : Shape).Idx → EReal) : (⟨2, ![R, C]⟩ : Shape).Idx → EReal :=
  fun i => rectifiedDense z a b w i + o (ix2 (n0 := 1) (n1 := 1) 0 0)

end Cert.Layers

end
-- ==== Proof.Dense0.lean ====
/-
  The first dense layer. The launch tiles the 100000 rows of the node features into twenty blocks of 5000 rows; at
  each block the body multiplies the block by the whole 128 × 128 weight matrix into a zero accumulator. Over the
  extended reals a change of float format is the identity and the product into zero is the plain sum of products, so
  block `t` of the result is rows `5000 t … 5000 t + 4999` of ONE array, `Layers.dense` of the features and the
  weights as the launch finds them. The twenty blocks tile the result, so after the last write-back the result array
  is that array.
-/
import proofs.«126257_j14542759264928_1_alg».proof.Proof.Gen.KernelIdeal.Frame
import proofs.«126257_j14542759264928_1_alg».proof.Proof.Layers
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense0

open Idealize.ShloMosaic Idealize.ShloMosaic.TcCoe Idealize.SL.Sem Idealize.ShloMosaic.ValueIdx
open Cert.KernelIdeal Cert.KernelIdeal.Gen Cert.Layers
open Idealize.ShloMosaic.Pipeline (Dat Cfg Window)

theorem zeros2 : (![0, 0] : Fin 2 → Nat) = fun _ => 0 := funext fun a => by fin_cases a <;> rfl

/-! ## The product's operand indices -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_inner (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_inner (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The body at an entry of its block -/

/-- The body's stored value at entry `(p, q)` of a block: the block's row `p` against the weights' column `q`. -/
theorem body_apply (X : Vec Ideal S5000x128 .f32) (W : Vec Ideal S128x128 .f32) (p : Fin 5000) (q : Fin 128) :
    k0_pay1 (F := Ideal) X W (ix2 p q) = ∑ k : Fin 128, X (ix2 p k) * W (ix2 k q) := by
  unfold k0_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_inner _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_inner _ _).trans hk
    | ⟨1, _⟩ => exact rhs_col _ _)
  rw [el, er]
  rfl

/-! ## From blocks to the array -/

section
variable (V : (c : Dev nD) → (b : Ref sig .tc) → Buf (Elt Ideal) ((c : Thread nD τ).loc b))

/-- The index maps over the grid: at point `t` the features' block and the result's block are both block `t` of
    their rows (all 128 columns), and the weights' one block is the whole matrix. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the dense layer of the features and weights as the launch finds them. -/
theorem written_eq (c : Dev nD) (t : Fin cfg0.N) :
    (dat0 V c).flushed 2 t = ((cfg0.win 2).blk t).view.read (Elt Ideal)
      (dense (R := 100000) (K := 128) (C := 128) (V c (Pipeline.arrRef spec0 0)) (V c (Pipeline.arrRef spec0 1))) := by
  show (cfg0.win 2).cut (grid0.coords t) ((dat0 V c).after 2 t) = _
  rw [after0_2]
  unfold out0_2
  rw [View.canon_unit_zero zeros2]
  simp only [View.ld_unit_zero (S := S5000x128) zeros2, View.ld_unit_zero (S := S128x128) zeros2]
  obtain ⟨e00, e01, e10, e11, e20, e21⟩ := index_facts t
  funext j
  obtain ⟨p, q, rfl⟩ : ∃ (p : Fin 5000) (q : Fin 128), j = ix2 p q := ⟨j 0, j 1, eq_ix2 j⟩
  refine (body_apply (iblk0 V c 0 t) (iblk0 V c 1 t) p q).trans ?_
  show _ = dense (R := 100000) (K := 128) (C := 128) (V c (Pipeline.arrRef spec0 0)) (V c (Pipeline.arrRef spec0 1)) (((cfg0.win 2).blk t).view.emb (ix2 p q))
  unfold dense
  refine Finset.sum_congr rfl fun k _ => ?_
  have hx : ((cfg0.win 0).blk t).view.emb (ix2 p k) = ix2 (n0 := 100000) ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hw : ((cfg0.win 1).blk t).view.emb (ix2 k q) = ix2 (n1 := 128) k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  unfold iblk0
  rw [View.read_apply, View.read_apply, hx, hw]
  rfl

/-- An index of the result is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The twenty blocks tile the result: row `r` lies in the block of point `r / 5000`. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have hlt : (i 0).val / 5000 < cfg0.N := by rw [hN]; omega
  refine ⟨⟨(i 0).val / 5000, hlt⟩, flush0_2 _, ?_⟩
  rw [mem_block]
  obtain ⟨-, -, -, -, e20, e21⟩ := index_facts ⟨(i 0).val / 5000, hlt⟩
  have ht : (⟨(i 0).val / 5000, hlt⟩ : Fin cfg0.N).val = (i 0).val / 5000 := rfl
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    omega

/-- After the launch the result array is the dense layer of the features and the weights as the launch finds them. -/
theorem final (c : Dev nD) :
    (dat0 V c).arrAt 2 cfg0.N = dense (R := 100000) (K := 128) (C := 128) (V c (Pipeline.arrRef spec0 0)) (V c (Pipeline.arrRef spec0 1)) :=
  (dat0 V c).arrAt_eq_of_cover 2 _ (fun t _ => written_eq V c t) covered

end

end Cert.KernelIdeal.Dense0

end
-- ==== Proof.Dense1.lean ====
/-
  The second dense layer, fused with what precedes it. The launch tiles the 100000 rows of the aggregated features
  into twenty blocks of 5000 rows; at each block the body adds the bias row to every row of the block, cuts the sum
  at zero from below, and multiplies the result by the whole 128 × 64 weight matrix into a zero accumulator. Over the
  extended reals block `t` of the result is rows `5000 t … 5000 t + 4999` of ONE array, `Layers.rectifiedDense` of
  the aggregated features, the bias row and the weights as the launch finds them; the twenty blocks tile the result.
-/
import proofs.«126257_j14542759264928_1_alg».proof.Proof.Gen.KernelIdeal.Frame
import proofs.«126257_j14542759264928_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Dense1

open Idealize.ShloMosaic Idealize.ShloMosaic.TcCoe Idealize.SL.Sem Idealize.ShloMosaic.ValueIdx
open Cert.KernelIdeal Cert.KernelIdeal.Gen Cert.Layers
open Idealize.ShloMosaic.Pipeline (Dat Cfg Window)

theorem zeros2 : (![0, 0] : Fin 2 → Nat) = fun _ => 0 := funext fun a => by fin_cases a <;> rfl

/-- The float zero the body cuts at (never evaluated: the same word on both sides). -/
abbrev zero : EReal := Ideal.ofBits .f32 0x00000000#32

/-! ## The product's operand indices -/

theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_inner (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_inner (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## The body at an entry of its block -/

/-- The body's stored value at entry `(p, q)` of a block: row `p` of the block, biased and cut at zero, against the
    weights' column `q`. -/
theorem body_apply (A : Vec Ideal S5000x128 .f32) (B : Vec Ideal S1x128 .f32) (W : Vec Ideal S128x64 .f32) (p : Fin 5000) (q : Fin 64) :
    k1_pay1 (F := Ideal) A B W (ix2 p q) = ∑ k : Fin 128, max (A (ix2 p k) + B (ix2 (0 : Fin 1) k)) zero * W (ix2 k q) := by
  unfold k1_pay1
  simp only [matmul]
  rw [Ideal.matmul_constant_zero_apply]
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_inner _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_inner _ _).trans hk
    | ⟨1, _⟩ => exact rhs_col _ _)
  rw [el, er]
  rw [shapeCast_self, shapeCast_self]
  show max (A (ix2 p k) + broadcastTo S5000x128 B broadcasts_S1x128_S5000x128 (ix2 p k)) _ * W (ix2 k q) = _
  rw [broadcastTo_1b_ab_apply]
  rfl

/-! ## From blocks to the array -/

section
variable (V : (c : Dev nD) → (b : Ref sig .tc) → Buf (Elt Ideal) ((c : Thread nD τ).loc b))

/-- The index maps over the grid: at point `t` the features' block and the result's block are both block `t` of
    their rows (all columns); the bias row and the weights have one block each, the whole array. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 2000000 in
/-- What point `t` writes back is block `t` of the biased, cut and multiplied features as the launch finds them. -/
theorem written_eq (c : Dev nD) (t : Fin cfg1.N) :
    (dat1 V c).flushed 3 t = ((cfg1.win 3).blk t).view.read (Elt Ideal)
      (rectifiedDense (R := 100000) (K := 128) (C := 64) zero (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zeros2]
  simp only [View.ld_unit_zero (S := S5000x128) zeros2, View.ld_unit_zero (S := S1x128) zeros2, View.ld_unit_zero (S := S128x64) zeros2]
  obtain ⟨e00, e01, e10, e11, e20, e21, e30, e31⟩ := index_facts t
  funext j
  obtain ⟨p, q, rfl⟩ : ∃ (p : Fin 5000) (q : Fin 64), j = ix2 p q := ⟨j 0, j 1, eq_ix2 j⟩
  refine (body_apply (iblk1 V c 0 t) (iblk1 V c 1 t) (iblk1 V c 2 t) p q).trans ?_
  show _ = rectifiedDense (R := 100000) (K := 128) (C := 64) zero (V c (Pipeline.arrRef spec1 0)) (V c (Pipeline.arrRef spec1 1)) (V c (Pipeline.arrRef spec1 2)) (((cfg1.win 3).blk t).view.emb (ix2 p q))
  unfold rectifiedDense dense rectified
  refine Finset.sum_congr rfl fun k _ => ?_
  have hx : ((cfg1.win 0).blk t).view.emb (ix2 p k) = ix2 (n0 := 100000) ((((cfg1.win 3).blk t).view.emb (ix2 p q)) 0) k := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  have hb : ((cfg1.win 1).blk t).view.emb (ix2 (0 : Fin 1) k) = ix2 (n0 := 1) (0 : Fin 1) k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have hw : ((cfg1.win 2).blk t).view.emb (ix2 k q) = ix2 (n1 := 64) k ((((cfg1.win 3).blk t).view.emb (ix2 p q)) 1) := by
    funext a; apply Fin.ext
    match a with
    | ⟨0, _⟩ => show win1_2.index t (0 : Fin 2) * 128 + 1 * k.val = k.val; omega
    | ⟨1, _⟩ => show win1_2.index t (1 : Fin 2) * 64 + 1 * q.val = win1_3.index t (1 : Fin 2) * 64 + 1 * q.val; omega
  have h0 : iblk1 V c 0 t (ix2 p k) = V c (Pipeline.arrRef spec1 0) (ix2 (n0 := 100000) ((((cfg1.win 3).blk t).view.emb (ix2 p q)) 0) k) := by
    unfold iblk1; rw [View.read_apply, hx]; try rfl
  have h1 : iblk1 V c 1 t (ix2 (0 : Fin 1) k) = V c (Pipeline.arrRef spec1 1) (ix2 (n0 := 1) (0 : Fin 1) k) := by
    unfold iblk1; rw [View.read_apply, hb]; try rfl
  have h2 : iblk1 V c 2 t (ix2 k q) = V c (Pipeline.arrRef spec1 2) (ix2 (n1 := 64) k ((((cfg1.win 3).blk t).view.emb (ix2 p q)) 1)) := by
    unfold iblk1; rw [View.read_apply, hw]; try rfl
  rw [h0, h1, h2]

/-- An index of the result is in point `t`'s block iff each coordinate is in the block's range on its axis. -/
theorem mem_block (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- The twenty blocks tile the result: row `r` lies in the block of point `r / 5000`. -/
theorem covered (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  have hlt : (i 0).val / 5000 < cfg1.N := by rw [hN]; omega
  refine ⟨⟨(i 0).val / 5000, hlt⟩, flush1_3 _, ?_⟩
  rw [mem_block]
  obtain ⟨-, -, -, -, -, -, e30, e31⟩ := index_facts ⟨(i 0).val / 5000, hlt⟩
  have ht : (⟨(i 0).val / 5000, hlt⟩ : Fin cfg1.N).val = (i 0).val / 5000 := rfl
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    omega
  | ⟨1, _⟩ =>
    show win1_3.index ⟨(i 0).val / 5000, hlt⟩ (1 : Fin 2) * 64 ≤ (i 1).val ∧ (i 1).val < win1_3.index ⟨(i 0).val / 5000, hlt⟩ (1 : Fin 2) * 64 + 64
    omega

/-- After the launch the result array is the biased, cut and multiplied features as the launch finds them. -/
theorem final (c : Dev nD) :
    (dat1 V c).arrAt 3 cfg1.N = rectifiedDense (R := 100000) (K := 128) (C := 64) zero (V c (Pipeline.arrRef spec1 0)) (V c (Pipeline.arrRef spec1 1)) (V c (Pipeline.arrRef spec1 2)) :=
  (dat1 V c).arrAt_eq_of_cover 3 _ (fun t _ => written_eq V c t) covered

end

end Cert.KernelIdeal.Dense1

end
-- ==== Proof.Dense2.lean ====
/-
  The third dense layer, fused with what precedes and follows it. The launch tiles the 100000 rows of the aggregated
  features into twenty blocks of 5000 rows; at each block the body adds the bias row to every row of the block, cuts
  the sum at zero from below, multiplies the result by the 64 × 1 weight column into a zero accumulator, and adds the
  one output bias to every entry. Over the extended reals block `t` of the result is rows `5000 t … 5000 t + 4999` of
  ONE array, `Layers.rectifiedDenseOut` of the aggregated features, the bias row, the weights and the output bias as
  the launch finds them; the twenty blocks tile the result.
-/
import proofs.«126257_j14542759264928_1_alg».proof.Proof.Gen.KernelIdeal.Frame
import proofs.«126257_j14542759264928_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Dense2

open Idealize.ShloMosaic Idealize.ShloMosaic.TcCoe Idealize.SL.Sem Idealize.ShloMosaic.ValueIdx
open Cert.KernelIdeal Cert.KernelIdeal.Gen Cert.Layers
open Idealize.ShloMosaic.Pipeline (Dat Cfg Window)

theorem zeros2 : (![0, 0] : Fin 2 → Nat) = fun _ => 0 := funext fun a => by fin_cases a <;> rfl

/-- The float zero the body cuts at (never evaluated: the same word on both sides). -/
abbrev zero : EReal := Ideal.ofBits .f32 0x00000000#32

/-! ## The product's operand indices -/

theorem lhs_row (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem lhs_inner (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
theorem rhs_inner (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
theorem rhs_col (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-! ## The body at an entry of its block -/

/-- The body's stored value at entry `(p, q)` of a block: row `p` of the block, biased and cut at zero, against the
    weight column, plus the output bias. -/
theorem body_apply (A : Vec Ideal S5000x64 .f32) (B : Vec Ideal S1x64 .f32) (W : Vec Ideal S64x1 .f32) (O : Vec Ideal S1x1 .f32)
    (p : Fin 5000) (q : Fin 1) :
    k2_pay1 (F := Ideal) A B W O (ix2 p q)
      = (∑ k : Fin 64, max (A (ix2 p k) + B (ix2 (0 : Fin 1) k)) zero * W (ix2 k q)) + O (ix2 (0 : Fin 1) q) := by
  unfold k2_pay1
  simp only [matmul]
  rw [addf_apply, shapeCast_self, shapeCast_self, shapeCast_self, broadcastTo_1b_ab_apply, Ideal.matmul_constant_zero_apply]
  refine congrArg (· + O (ix2 (0 : Fin 1) q)) ?_
  rw [← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 p q) ((contrEquiv1 dot_S5000x64_S64x1_S5000x1_1_0_0_1_n_n 64 rfl rfl).symm k) = ix2 p k := funext fun a => Fin.ext (by
    match a with
    | ⟨0, _⟩ => exact lhs_row _ _
    | ⟨1, _⟩ => exact (lhs_inner _ _).trans hk)
  have er : dot_S5000x64_S64x1_S5000x1_1_0_0_1_n_n.rhsIdx (ix2 p q) ((contrEquiv1 dot_S5000x64_S64x1_S5000x1_1_0_0_1_n_n 64 rfl rfl).symm k) = ix2 k q := funext fun a => Fin.ext (by
    match a with
    | ⟨0, _⟩ => exact (rhs_inner _ _).trans hk
    | ⟨1, _⟩ => exact rhs_col _ _)
  rw [el, er]
  show max (A (ix2 p k) + broadcastTo S5000x64 B broadcasts_S1x64_S5000x64 (ix2 p k)) _ * W (ix2 k q) = _
  rw [broadcastTo_1b_ab_apply]
  rfl

/-! ## From blocks to the array -/

section
variable (V : (c : Dev nD) → (b : Ref sig .tc) → Buf (Elt Ideal) ((c : Thread nD τ).loc b))

/-- The index maps over the grid: at point `t` the features' block and the result's block are both block `t` of
    their rows (all columns); the bias row, the weights and the output bias have one block each, the whole array. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

set_option maxHeartbeats 2000000 in
/-- What point `t` writes back is block `t` of the last layer of the features as the launch finds them. -/
theorem written_eq (c : Dev nD) (t : Fin cfg2.N) :
    (dat2 V c).flushed 4 t = ((cfg2.win 4).blk t).view.read (Elt Ideal)
      (rectifiedDenseOut (R := 100000) (K := 64) (C := 1) zero (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero zeros2]
  simp only [View.ld_unit_zero (S := S5000x64) zeros2, View.ld_unit_zero (S := S1x64) zeros2, View.ld_unit_zero (S := S64x1) zeros2, View.ld_unit_zero (S := S1x1) zeros2]
  obtain ⟨e00, e01, e10, e11, e20, e21, e30, e31, e40, e41⟩ := index_facts t
  funext j
  obtain ⟨p, q, rfl⟩ : ∃ (p : Fin 5000) (q : Fin 1), j = ix2 p q := ⟨j 0, j 1, eq_ix2 j⟩
  obtain rfl : q = 0 := Subsingleton.elim _ _
  refine (body_apply (iblk2 V c 0 t) (iblk2 V c 1 t) (iblk2 V c 2 t) (iblk2 V c 3 t) p 0).trans ?_
  show _ = rectifiedDenseOut (R := 100000) (K := 64) (C := 1) zero (V c (Pipeline.arrRef spec2 0)) (V c (Pipeline.arrRef spec2 1)) (V c (Pipeline.arrRef spec2 2)) (V c (Pipeline.arrRef spec2 3)) (((cfg2.win 4).blk t).view.emb (ix2 p 0))
  unfold rectifiedDenseOut rectifiedDense dense rectified
  have ho : ((cfg2.win 3).blk t).view.emb (ix2 (0 : Fin 1) (0 : Fin 1)) = ix2 (n0 := 1) (n1 := 1) (0 : Fin 1) (0 : Fin 1) := by
    funext a; apply Fin.ext
    match a with
    | ⟨0, _⟩ => show win2_3.index t (0 : Fin 2) * 1 + 1 * 0 = 0; omega
    | ⟨1, _⟩ => show win2_3.index t (1 : Fin 2) * 1 + 1 * 0 = 0; omega
  refine congrArg₂ (· + ·) (Finset.sum_congr rfl fun k _ => ?_) ?_
  · have hx : ((cfg2.win 0).blk t).view.emb (ix2 p k) = ix2 (n0 := 100000) ((((cfg2.win 4).blk t).view.emb (ix2 p (0 : Fin 1))) 0) k := by
      funext a; apply Fin.ext
      match a with
      | ⟨0, _⟩ => show win2_0.index t (0 : Fin 2) * 5000 + 1 * p.val = win2_4.index t (0 : Fin 2) * 5000 + 1 * p.val; omega
      | ⟨1, _⟩ => show win2_0.index t (1 : Fin 2) * 64 + 1 * k.val = k.val; omega
    have hb : ((cfg2.win 1).blk t).view.emb (ix2 (0 : Fin 1) k) = ix2 (n0 := 1) (0 : Fin 1) k := by
      funext a; apply Fin.ext
      match a with
      | ⟨0, _⟩ => show win2_1.index t (0 : Fin 2) * 1 + 1 * 0 = 0; omega
      | ⟨1, _⟩ => show win2_1.index t (1 : Fin 2) * 64 + 1 * k.val = k.val; omega
    have hw : ((cfg2.win 2).blk t).view.emb (ix2 k (0 : Fin 1)) = ix2 (n1 := 1) k ((((cfg2.win 4).blk t).view.emb (ix2 p (0 : Fin 1))) 1) := by
      funext a; apply Fin.ext
      match a with
      | ⟨0, _⟩ => show win2_2.index t (0 : Fin 2) * 64 + 1 * k.val = k.val; omega
      | ⟨1, _⟩ => show win2_2.index t (1 : Fin 2) * 1 + 1 * 0 = win2_4.index t (1 : Fin 2) * 1 + 1 * 0; omega
    have h0 : iblk2 V c 0 t (ix2 p k) = V c (Pipeline.arrRef spec2 0) (ix2 (n0 := 100000) ((((cfg2.win 4).blk t).view.emb (ix2 p (0 : Fin 1))) 0) k) := by
      unfold iblk2; rw [View.read_apply, hx]; try rfl
    have h1 : iblk2 V c 1 t (ix2 (0 : Fin 1) k) = V c (Pipeline.arrRef spec2 1) (ix2 (n0 := 1) (0 : Fin 1) k) := by
      unfold iblk2; rw [View.read_apply, hb]; try rfl
    have h2 : iblk2 V c 2 t (ix2 k (0 : Fin 1)) = V c (Pipeline.arrRef spec2 2) (ix2 (n1 := 1) k ((((cfg2.win 4).blk t).view.emb (ix2 p (0 : Fin 1))) 1)) := by
      unfold iblk2; rw [View.read_apply, hw]; try rfl
    rw [h0, h1, h2]
  · have h3 : iblk2 V c 3 t (ix2 (0 : Fin 1) (0 : Fin 1)) = V c (Pipeline.arrRef spec2 3) (ix2 (n0 := 1) (n1 := 1) (0 : Fin 1) (0 : Fin 1)) := by
      unfold iblk2; rw [View.read_apply, ho]; try rfl
    rw [h3]

/-- An index of the result is in point `t`'s block iff each coordinate is in the block's range on its axis. -/
theorem mem_block (t : Fin cfg2.N) (i : S100000x1.Idx) :
    i ∈ ((cfg2.win 4).blk t).view.set ↔ ∀ a : Fin 2, win2_4.index t a * S5000x1.size a ≤ (i a).val ∧ (i a).val < win2_4.index t a * S5000x1.size a + S5000x1.size a := by
  show i ∈ ((View.whole main_v61).slice (win2_4.rect t)).set ↔ _
  rw [View.set_slice_whole, Rect.mem_set_unit]
  exact Iff.rfl

/-- The twenty blocks tile the result: row `r` lies in the block of point `r / 5000`. -/
theorem covered (i : S100000x1.Idx) : ∃ t : Fin cfg2.N, (cfg2.win 4).flush t = true ∧ i ∈ ((cfg2.win 4).blk t).view.set := by
  have hi0 : (i 0).val < 100000 := (i 0).isLt
  have hi1 : (i 1).val < 1 := (i 1).isLt
  have hN : cfg2.N = 20 := N_2
  have hlt : (i 0).val / 5000 < cfg2.N := by rw [hN]; omega
  refine ⟨⟨(i 0).val / 5000, hlt⟩, flush2_4 _, ?_⟩
  rw [mem_block]
  obtain ⟨-, -, -, -, -, -, -, -, e40, e41⟩ := index_facts ⟨(i 0).val / 5000, hlt⟩
  have ht : (⟨(i 0).val / 5000, hlt⟩ : Fin cfg2.N).val = (i 0).val / 5000 := rfl
  intro a
  match a with
  | ⟨0, _⟩ =>
    show win2_4.index ⟨(i 0).val / 5000, hlt⟩ (0 : Fin 2) * 5000 ≤ (i 0).val ∧ (i 0).val < win2_4.index ⟨(i 0).val / 5000, hlt⟩ (0 : Fin 2) * 5000 + 5000
    omega
  | ⟨1, _⟩ =>
    show win2_4.index ⟨(i 0).val / 5000, hlt⟩ (1 : Fin 2) * 1 ≤ (i 1).val ∧ (i 1).val < win2_4.index ⟨(i 0).val / 5000, hlt⟩ (1 : Fin 2) * 1 + 1
    omega

/-- After the launch the result array is the last layer of the features as the launch finds them. -/
theorem final (c : Dev nD) :
    (dat2 V c).arrAt 4 cfg2.N = rectifiedDenseOut (R := 100000) (K := 64) (C := 1) zero (V c (Pipeline.arrRef spec2 0)) (V c (Pipeline.arrRef spec2 1)) (V c (Pipeline.arrRef spec2 2)) (V c (Pipeline.arrRef spec2 3)) :=
  (dat2 V c).arrAt_eq_of_cover 4 _ (fun t _ => written_eq V c t) covered

end

end Cert.KernelIdeal.Dense2

end
-- ==== Proof.Stretches.lean ====
/-
  The stretches of host operations between the launches, read at the buffers the launches and the result depend on.
  Before the first launch the host builds the edge ends (with the self loops) and the edge weights from the edge list.
  Between the first and second launch it runs one round of message passing on the first layer's output and lays the
  first bias out as one row; between the second and third it does the same on the second layer's output and lays out
  the second bias and the output bias. Each stretch is read over ANY contents of the buffers when it starts, so that
  what a launch left in its arrays is never opened here.
-/
import proofs.«126257_j14542759264928_1_alg».proof.Proof.Gen.KernelIdeal.Launch
import proofs.«126257_j14542759264928_1_alg».proof.Proof.GraphOps
import Idealize.ShloMosaic.Lib.StableHlo.Run

set_option maxRecDepth 16384

noncomputable section

namespace Cert.KernelIdeal.Stretches

open Cert.KernelIdeal Cert.KernelIdeal.Gen Cert.Graph
open Idealize.ShloMosaic Idealize.ShloMosaic.TcCoe Idealize.SL.Sem Idealize.ShloMosaic.StableHlo

variable {F : FTy → Type} [FloatOps F]

/-- The buffers when the first launch starts, from their contents at the program's start. -/
abbrev entry0 (Wv : Valuation τ sig (Elt F)) : Valuation τ sig (Elt F) := after hostOps0_2 (after hostOps0_1 (after hostOps0 Wv))
/-- The buffers when the second launch starts, from their contents when the first ended. -/
abbrev entry1 (Wv : Valuation τ sig (Elt F)) : Valuation τ sig (Elt F) := after hostOps1 Wv
/-- The buffers when the third launch starts, from their contents when the second ended. -/
abbrev entry2 (Wv : Valuation τ sig (Elt F)) : Valuation τ sig (Elt F) := after hostOps2 Wv

/-! ## Before the first launch -/

/-- The edges' sources, the self loops last. -/
theorem entry0_src (Wv : Valuation τ sig (Elt F)) :
    entry0 Wv (Proc.devRef .tc main_v3) = srcOf (Wv (Proc.devRef .tc main_arg1)) := by
  simp only [entry0, hostOps0, hostOps0_1, hostOps0_2]; after_results_simp <;> rfl
/-- The edges' destinations, the self loops last. -/
theorem entry0_dst (Wv : Valuation τ sig (Elt F)) :
    entry0 Wv (Proc.devRef .tc main_v6) = dstOf (Wv (Proc.devRef .tc main_arg1)) := by
  simp only [entry0, hostOps0, hostOps0_1, hostOps0_2]; after_results_simp <;> rfl
/-- The edges' weights. -/
theorem entry0_weight (Wv : Valuation τ sig (Elt F)) :
    entry0 Wv (Proc.devRef .tc main_v29)
      = edgeWeight (F := F) (srcOf (Wv (Proc.devRef .tc main_arg1))) (dstOf (Wv (Proc.devRef .tc main_arg1))) := by
  simp only [entry0, hostOps0, hostOps0_1, hostOps0_2]; after_results_simp <;> rfl
theorem entry0_keeps_arg0 (Wv : Valuation τ sig (Elt F)) :
    entry0 Wv (Proc.devRef .tc main_arg0) = Wv (Proc.devRef .tc main_arg0) := by
  simp only [entry0, hostOps0, hostOps0_1, hostOps0_2]; after_results_simp <;> rfl
theorem entry0_keeps_arg2 (Wv : Valuation τ sig (Elt F)) :
    entry0 Wv (Proc.devRef .tc main_arg2) = Wv (Proc.devRef .tc main_arg2) := by
  simp only [entry0, hostOps0, hostOps0_1, hostOps0_2]; after_results_simp <;> rfl
theorem entry0_keeps_arg3 (Wv : Valuation τ sig (Elt F)) :
    entry0 Wv (Proc.devRef .tc main_arg3) = Wv (Proc.devRef .tc main_arg3) := by
  simp only [entry0, hostOps0, hostOps0_1, hostOps0_2]; after_results_simp <;> rfl
theorem entry0_keeps_arg4 (Wv : Valuation τ sig (Elt F)) :
    entry0 Wv (Proc.devRef .tc main_arg4) = Wv (Proc.devRef .tc main_arg4) := by
  simp only [entry0, hostOps0, hostOps0_1, hostOps0_2]; after_results_simp <;> rfl
theorem entry0_keeps_arg5 (Wv : Valuation τ sig (Elt F)) :
    entry0 Wv (Proc.devRef .tc main_arg5) = Wv (Proc.devRef .tc main_arg5) := by
  simp only [entry0, hostOps0, hostOps0_1, hostOps0_2]; after_results_simp <;> rfl
theorem entry0_keeps_arg6 (Wv : Valuation τ sig (Elt F)) :
    entry0 Wv (Proc.devRef .tc main_arg6) = Wv (Proc.devRef .tc main_arg6) := by
  simp only [entry0, hostOps0, hostOps0_1, hostOps0_2]; after_results_simp <;> rfl
theorem entry0_keeps_arg7 (Wv : Valuation τ sig (Elt F)) :
    entry0 Wv (Proc.devRef .tc main_arg7) = Wv (Proc.devRef .tc main_arg7) := by
  simp only [entry0, hostOps0, hostOps0_1, hostOps0_2]; after_results_simp <;> rfl

/-! ## Between the first and the second launch -/

/-- One round of message passing on the first layer's output. -/
theorem entry1_hidden (Wv : Valuation τ sig (Elt F)) :
    entry1 Wv (Proc.devRef .tc main_v43)
      = aggregate128 (F := F) (Wv (Proc.devRef .tc main_v29)) (Wv (Proc.devRef .tc main_v3)) (Wv (Proc.devRef .tc main_v6)) (Wv (Proc.devRef .tc main_v30)) := by
  simp only [entry1, hostOps1]; after_results_simp <;> rfl
/-- The first bias as one row. -/
theorem entry1_bias (Wv : Valuation τ sig (Elt F)) :
    entry1 Wv (Proc.devRef .tc main_v44) = shapeCast S1x128 (Wv (Proc.devRef .tc main_arg3)) shapeCasts_S128_S1x128 := by
  simp only [entry1, hostOps1]; after_results_simp <;> rfl
theorem entry1_keeps_v29 (Wv : Valuation τ sig (Elt F)) :
    entry1 Wv (Proc.devRef .tc main_v29) = Wv (Proc.devRef .tc main_v29) := by
  simp only [entry1, hostOps1]; after_results_simp <;> rfl
theorem entry1_keeps_v3 (Wv : Valuation τ sig (Elt F)) :
    entry1 Wv (Proc.devRef .tc main_v3) = Wv (Proc.devRef .tc main_v3) := by
  simp only [entry1, hostOps1]; after_results_simp <;> rfl
theorem entry1_keeps_v6 (Wv : Valuation τ sig (Elt F)) :
    entry1 Wv (Proc.devRef .tc main_v6) = Wv (Proc.devRef .tc main_v6) := by
  simp only [entry1, hostOps1]; after_results_simp <;> rfl
theorem entry1_keeps_arg4 (Wv : Valuation τ sig (Elt F)) :
    entry1 Wv (Proc.devRef .tc main_arg4) = Wv (Proc.devRef .tc main_arg4) := by
  simp only [entry1, hostOps1]; after_results_simp <;> rfl
theorem entry1_keeps_arg5 (Wv : Valuation τ sig (Elt F)) :
    entry1 Wv (Proc.devRef .tc main_arg5) = Wv (Proc.devRef .tc main_arg5) := by
  simp only [entry1, hostOps1]; after_results_simp <;> rfl
theorem entry1_keeps_arg6 (Wv : Valuation τ sig (Elt F)) :
    entry1 Wv (Proc.devRef .tc main_arg6) = Wv (Proc.devRef .tc main_arg6) := by
  simp only [entry1, hostOps1]; after_results_simp <;> rfl
theorem entry1_keeps_arg7 (Wv : Valuation τ sig (Elt F)) :
    entry1 Wv (Proc.devRef .tc main_arg7) = Wv (Proc.devRef .tc main_arg7) := by
  simp only [entry1, hostOps1]; after_results_simp <;> rfl

/-! ## Between the second and the third launch -/

/-- One round of message passing on the second layer's output. -/
theorem entry2_hidden (Wv : Valuation τ sig (Elt F)) :
    entry2 Wv (Proc.devRef .tc main_v58)
      = aggregate64 (F := F) (Wv (Proc.devRef .tc main_v29)) (Wv (Proc.devRef .tc main_v3)) (Wv (Proc.devRef .tc main_v6)) (Wv (Proc.devRef .tc main_v45)) := by
  simp only [entry2, hostOps2]; after_results_simp <;> rfl
/-- The second bias as one row. -/
theorem entry2_bias (Wv : Valuation τ sig (Elt F)) :
    entry2 Wv (Proc.devRef .tc main_v59) = shapeCast S1x64 (Wv (Proc.devRef .tc main_arg5)) shapeCasts_S64_S1x64 := by
  simp only [entry2, hostOps2]; after_results_simp <;> rfl
/-- The output bias as a one-by-one matrix. -/
theorem entry2_outBias (Wv : Valuation τ sig (Elt F)) :
    entry2 Wv (Proc.devRef .tc main_v60) = shapeCast S1x1 (Wv (Proc.devRef .tc main_arg7)) shapeCasts_S1_S1x1 := by
  simp only [entry2, hostOps2]; after_results_simp <;> rfl
theorem entry2_keeps_arg6 (Wv : Valuation τ sig (Elt F)) :
    entry2 Wv (Proc.devRef .tc main_arg6) = Wv (Proc.devRef .tc main_arg6) := by
  simp only [entry2, hostOps2]; after_results_simp <;> rfl

end Cert.KernelIdeal.Stretches

end
-- ==== Proof.KernelValue.lean ====
/-
  The idealized kernel's result as a function of its arguments.
  Walking the fold of buffer contents back from the end: the result is the third launch's output, the last layer of
  what the third launch found; that is one round of message passing on the second launch's output, with the edge ends
  and weights the host built before the first launch (no launch and no later stretch touches them); the second
  launch's output is the second layer of one round of message passing on the first launch's output; and the first
  launch's output is the dense layer of the node features and the first weights.
-/
import proofs.«126257_j14542759264928_1_alg».proof.Proof.Gen.KernelIdeal.Frame
import proofs.«126257_j14542759264928_1_alg».proof.Proof.Dense0
import proofs.«126257_j14542759264928_1_alg».proof.Proof.Dense1
import proofs.«126257_j14542759264928_1_alg».proof.Proof.Dense2
import proofs.«126257_j14542759264928_1_alg».proof.Proof.Stretches

set_option maxRecDepth 16384

noncomputable section

namespace Cert.KernelIdeal.Walk

open Cert.KernelIdeal Cert.KernelIdeal.Gen Cert.Graph Cert.Layers Cert.KernelIdeal.Stretches
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The float zero the layers cut at (never evaluated: the same word on both sides). -/
abbrev zero : EReal := Ideal.ofBits .f32 0x00000000#32

/-! ## When the first launch starts -/

theorem at3_src : W3 m ρ c (Proc.devRef .tc main_v3) = srcOf (m ((c.tc : Thread nD τ).loc main_arg1)) :=
  entry0_src (W0 m ρ c)
theorem at3_dst : W3 m ρ c (Proc.devRef .tc main_v6) = dstOf (m ((c.tc : Thread nD τ).loc main_arg1)) :=
  entry0_dst (W0 m ρ c)
theorem at3_weight : W3 m ρ c (Proc.devRef .tc main_v29)
    = edgeWeight (F := Ideal) (srcOf (m ((c.tc : Thread nD τ).loc main_arg1))) (dstOf (m ((c.tc : Thread nD τ).loc main_arg1))) :=
  entry0_weight (W0 m ρ c)
theorem at3_arg0 : W3 m ρ c (Proc.devRef .tc main_arg0) = m ((c.tc : Thread nD τ).loc main_arg0) :=
  entry0_keeps_arg0 (W0 m ρ c)
theorem at3_arg2 : W3 m ρ c (Proc.devRef .tc main_arg2) = m ((c.tc : Thread nD τ).loc main_arg2) :=
  entry0_keeps_arg2 (W0 m ρ c)
theorem at3_arg3 : W3 m ρ c (Proc.devRef .tc main_arg3) = m ((c.tc : Thread nD τ).loc main_arg3) :=
  entry0_keeps_arg3 (W0 m ρ c)
theorem at3_arg4 : W3 m ρ c (Proc.devRef .tc main_arg4) = m ((c.tc : Thread nD τ).loc main_arg4) :=
  entry0_keeps_arg4 (W0 m ρ c)
theorem at3_arg5 : W3 m ρ c (Proc.devRef .tc main_arg5) = m ((c.tc : Thread nD τ).loc main_arg5) :=
  entry0_keeps_arg5 (W0 m ρ c)
theorem at3_arg6 : W3 m ρ c (Proc.devRef .tc main_arg6) = m ((c.tc : Thread nD τ).loc main_arg6) :=
  entry0_keeps_arg6 (W0 m ρ c)
theorem at3_arg7 : W3 m ρ c (Proc.devRef .tc main_arg7) = m ((c.tc : Thread nD τ).loc main_arg7) :=
  entry0_keeps_arg7 (W0 m ρ c)

/-! ## When the first launch ends -/

theorem at4_dense : W4 m ρ c (Proc.devRef .tc main_v30)
    = dense (R := 100000) (K := 128) (C := 128) (W3 m ρ c (Proc.devRef .tc main_arg0)) (W3 m ρ c (Proc.devRef .tc main_arg2)) :=
  (W4_arr m ρ c 2).trans (Dense0.final (V3 m ρ) c)
theorem at4_keeps_v29 : W4 m ρ c (Proc.devRef .tc main_v29) = W3 m ρ c (Proc.devRef .tc main_v29) :=
  W4_of_ne m ρ c main_v29 (by decide)
theorem at4_keeps_v3 : W4 m ρ c (Proc.devRef .tc main_v3) = W3 m ρ c (Proc.devRef .tc main_v3) :=
  W4_of_ne m ρ c main_v3 (by decide)
theorem at4_keeps_v6 : W4 m ρ c (Proc.devRef .tc main_v6) = W3 m ρ c (Proc.devRef .tc main_v6) :=
  W4_of_ne m ρ c main_v6 (by decide)
theorem at4_keeps_arg3 : W4 m ρ c (Proc.devRef .tc main_arg3) = W3 m ρ c (Proc.devRef .tc main_arg3) :=
  W4_of_ne m ρ c main_arg3 (by decide)
theorem at4_keeps_arg4 : W4 m ρ c (Proc.devRef .tc main_arg4) = W3 m ρ c (Proc.devRef .tc main_arg4) :=
  W4_of_ne m ρ c main_arg4 (by decide)
theorem at4_keeps_arg5 : W4 m ρ c (Proc.devRef .tc main_arg5) = W3 m ρ c (Proc.devRef .tc main_arg5) :=
  W4_of_ne m ρ c main_arg5 (by decide)
theorem at4_keeps_arg6 : W4 m ρ c (Proc.devRef .tc main_arg6) = W3 m ρ c (Proc.devRef .tc main_arg6) :=
  W4_of_ne m ρ c main_arg6 (by decide)
theorem at4_keeps_arg7 : W4 m ρ c (Proc.devRef .tc main_arg7) = W3 m ρ c (Proc.devRef .tc main_arg7) :=
  W4_of_ne m ρ c main_arg7 (by decide)

/-! ## When the second launch starts -/

theorem at5_hidden : W5 m ρ c (Proc.devRef .tc main_v43)
    = aggregate128 (F := Ideal) (W4 m ρ c (Proc.devRef .tc main_v29)) (W4 m ρ c (Proc.devRef .tc main_v3)) (W4 m ρ c (Proc.devRef .tc main_v6)) (W4 m ρ c (Proc.devRef .tc main_v30)) :=
  entry1_hidden (W4 m ρ c)
theorem at5_bias : W5 m ρ c (Proc.devRef .tc main_v44) = shapeCast S1x128 (W4 m ρ c (Proc.devRef .tc main_arg3)) shapeCasts_S128_S1x128 :=
  entry1_bias (W4 m ρ c)
theorem at5_keeps_v29 : W5 m ρ c (Proc.devRef .tc main_v29) = W4 m ρ c (Proc.devRef .tc main_v29) :=
  entry1_keeps_v29 (W4 m ρ c)
theorem at5_keeps_v3 : W5 m ρ c (Proc.devRef .tc main_v3) = W4 m ρ c (Proc.devRef .tc main_v3) :=
  entry1_keeps_v3 (W4 m ρ c)
theorem at5_keeps_v6 : W5 m ρ c (Proc.devRef .tc main_v6) = W4 m ρ c (Proc.devRef .tc main_v6) :=
  entry1_keeps_v6 (W4 m ρ c)
theorem at5_keeps_arg4 : W5 m ρ c (Proc.devRef .tc main_arg4) = W4 m ρ c (Proc.devRef .tc main_arg4) :=
  entry1_keeps_arg4 (W4 m ρ c)
theorem at5_keeps_arg5 : W5 m ρ c (Proc.devRef .tc main_arg5) = W4 m ρ c (Proc.devRef .tc main_arg5) :=
  entry1_keeps_arg5 (W4 m ρ c)
theorem at5_keeps_arg6 : W5 m ρ c (Proc.devRef .tc main_arg6) = W4 m ρ c (Proc.devRef .tc main_arg6) :=
  entry1_keeps_arg6 (W4 m ρ c)
theorem at5_keeps_arg7 : W5 m ρ c (Proc.devRef .tc main_arg7) = W4 m ρ c (Proc.devRef .tc main_arg7) :=
  entry1_keeps_arg7 (W4 m ρ c)

/-! ## When the second launch ends -/

theorem at6_dense : W6 m ρ c (Proc.devRef .tc main_v45)
    = rectifiedDense (R := 100000) (K := 128) (C := 64) zero (W5 m ρ c (Proc.devRef .tc main_v43)) (W5 m ρ c (Proc.devRef .tc main_v44)) (W5 m ρ c (Proc.devRef .tc main_arg4)) :=
  (W6_arr m ρ c 3).trans (Dense1.final (V5 m ρ) c)
theorem at6_keeps_v29 : W6 m ρ c (Proc.devRef .tc main_v29) = W5 m ρ c (Proc.devRef .tc main_v29) :=
  W6_of_ne m ρ c main_v29 (by decide)
theorem at6_keeps_v3 : W6 m ρ c (Proc.devRef .tc main_v3) = W5 m ρ c (Proc.devRef .tc main_v3) :=
  W6_of_ne m ρ c main_v3 (by decide)
theorem at6_keeps_v6 : W6 m ρ c (Proc.devRef .tc main_v6) = W5 m ρ c (Proc.devRef .tc main_v6) :=
  W6_of_ne m ρ c main_v6 (by decide)
theorem at6_keeps_arg5 : W6 m ρ c (Proc.devRef .tc main_arg5) = W5 m ρ c (Proc.devRef .tc main_arg5) :=
  W6_of_ne m ρ c main_arg5 (by decide)
theorem at6_keeps_arg6 : W6 m ρ c (Proc.devRef .tc main_arg6) = W5 m ρ c (Proc.devRef .tc main_arg6) :=
  W6_of_ne m ρ c main_arg6 (by decide)
theorem at6_keeps_arg7 : W6 m ρ c (Proc.devRef .tc main_arg7) = W5 m ρ c (Proc.devRef .tc main_arg7) :=
  W6_of_ne m ρ c main_arg7 (by decide)

/-! ## When the third launch starts -/

theorem at7_hidden : W7 m ρ c (Proc.devRef .tc main_v58)
    = aggregate64 (F := Ideal) (W6 m ρ c (Proc.devRef .tc main_v29)) (W6 m ρ c (Proc.devRef .tc main_v3)) (W6 m ρ c (Proc.devRef .tc main_v6)) (W6 m ρ c (Proc.devRef .tc main_v45)) :=
  entry2_hidden (W6 m ρ c)
theorem at7_bias : W7 m ρ c (Proc.devRef .tc main_v59) = shapeCast S1x64 (W6 m ρ c (Proc.devRef .tc main_arg5)) shapeCasts_S64_S1x64 :=
  entry2_bias (W6 m ρ c)
theorem at7_outBias : W7 m ρ c (Proc.devRef .tc main_v60) = shapeCast S1x1 (W6 m ρ c (Proc.devRef .tc main_arg7)) shapeCasts_S1_S1x1 :=
  entry2_outBias (W6 m ρ c)
theorem at7_keeps_arg6 : W7 m ρ c (Proc.devRef .tc main_arg6) = W6 m ρ c (Proc.devRef .tc main_arg6) :=
  entry2_keeps_arg6 (W6 m ρ c)

/-! ## When the third launch ends -/

theorem at8_dense : W8 m ρ c (Proc.devRef .tc main_v61)
    = rectifiedDenseOut (R := 100000) (K := 64) (C := 1) zero (W7 m ρ c (Proc.devRef .tc main_v58)) (W7 m ρ c (Proc.devRef .tc main_v59)) (W7 m ρ c (Proc.devRef .tc main_arg6)) (W7 m ρ c (Proc.devRef .tc main_v60)) :=
  (W8_arr m ρ c 4).trans (Dense2.final (V7 m ρ) c)

/-! ## The result -/

/-- The result buffer after the run: three dense layers with a round of message passing after each of the first two,
    all as functions of the eight arguments as launched. -/
theorem result :
    W8 m ρ c (Proc.devRef .tc main_v61)
      = rectifiedDenseOut (R := 100000) (K := 64) (C := 1) zero
          (hidden2 (F := Ideal) (m ((c.tc : Thread nD τ).loc main_arg1))
            (rectifiedDense (R := 100000) (K := 128) (C := 64) zero
              (hidden1 (F := Ideal) (m ((c.tc : Thread nD τ).loc main_arg1))
                (dense (R := 100000) (K := 128) (C := 128) (m ((c.tc : Thread nD τ).loc main_arg0)) (m ((c.tc : Thread nD τ).loc main_arg2))))
              (shapeCast S1x128 (m ((c.tc : Thread nD τ).loc main_arg3)) shapeCasts_S128_S1x128)
              (m ((c.tc : Thread nD τ).loc main_arg4))))
          (shapeCast S1x64 (m ((c.tc : Thread nD τ).loc main_arg5)) shapeCasts_S64_S1x64)
          (m ((c.tc : Thread nD τ).loc main_arg6))
          (shapeCast S1x1 (m ((c.tc : Thread nD τ).loc main_arg7)) shapeCasts_S1_S1x1) := by
  rw [at8_dense, at7_hidden, at7_bias, at7_outBias, at7_keeps_arg6,
    at6_dense, at6_keeps_v29, at6_keeps_v3, at6_keeps_v6, at6_keeps_arg5, at6_keeps_arg6, at6_keeps_arg7,
    at5_hidden, at5_bias, at5_keeps_v29, at5_keeps_v3, at5_keeps_v6, at5_keeps_arg4, at5_keeps_arg5, at5_keeps_arg6, at5_keeps_arg7,
    at4_dense, at4_keeps_v29, at4_keeps_v3, at4_keeps_v6, at4_keeps_arg3, at4_keeps_arg4, at4_keeps_arg5, at4_keeps_arg6, at4_keeps_arg7,
    at3_weight, at3_src, at3_dst, at3_arg0, at3_arg2, at3_arg3, at3_arg4, at3_arg5, at3_arg6, at3_arg7]
  rfl

end Cert.KernelIdeal.Walk

end
-- ==== Proof.DenseRef.lean ====
/-
  The reference's three matrix products, read at an entry, are the dense layers of `Layers`.
  Over the extended reals a product on the host is the plain sum of products over the contracted axis. The reference
  adds a bias by broadcasting the bias vector first to one row and then down all the rows, and cuts at zero against a
  broadcast zero: at entry `(r, k)` that is `max (a (r, k) + b k) 0`, the entry `Layers.rectified` takes when it is given
  the bias as a one-row matrix.
-/
import proofs.«126257_j14542759264928_1_alg».proof.Proof.GraphOps
import proofs.«126257_j14542759264928_1_alg».proof.Proof.Layers
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.DenseRef

open Cert.ReferenceIdeal Cert.ReferenceIdeal.Gen Cert.Layers Cert.Graph
open Idealize.ShloMosaic Idealize.ShloMosaic.ValueIdx

/-- The float zero the layers cut at (never evaluated: the same word on both sides). -/
abbrev zero : EReal := Ideal.ofBits .f32 0x00000000#32

/-! ## The first product: features [100000, 128] by weights [128, 128] -/

namespace First

theorem lhs_row (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_inner (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_inner (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_col (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's product of the features and the first weights is the dense layer. -/
theorem dense_eq (x : FVec Ideal S100000x128 .f32) (w : FVec Ideal S128x128 .f32) :
    Host.dotGeneral dot_S100000x128_S128x128_S100000x128_1_0_0_1_n_n none x w = dense (R := 100000) (K := 128) (C := 128) x w := by
  funext i
  obtain ⟨r, j, rfl⟩ : ∃ (r : Fin 100000) (j : Fin 128), i = ix2 r j := ⟨i 0, i 1, eq_ix2 i⟩
  simp only [Host.dotGeneral]
  rw [Ideal.dotGeneral_apply]
  unfold dense
  rw [← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r j) ((contrEquiv1 dot_S100000x128_S128x128_S100000x128_1_0_0_1_n_n 128 rfl rfl).symm k) = ix2 r k := funext fun a => Fin.ext (by
    match a with
    | ⟨0, _⟩ => exact lhs_row _ _
    | ⟨1, _⟩ => exact (lhs_inner _ _).trans hk)
  have er : dot_S100000x128_S128x128_S100000x128_1_0_0_1_n_n.rhsIdx (ix2 r j) ((contrEquiv1 dot_S100000x128_S128x128_S100000x128_1_0_0_1_n_n 128 rfl rfl).symm k) = ix2 k j := funext fun a => Fin.ext (by
    match a with
    | ⟨0, _⟩ => exact (rhs_inner _ _).trans hk
    | ⟨1, _⟩ => exact rhs_col _ _)
  rw [el, er]

end First

/-! ## The second product: activated features [100000, 128] by weights [128, 64] -/

namespace Second

theorem lhs_row (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs_inner (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem rhs_inner (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem rhs_col (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- A one-row matrix broadcast down all the rows reads, at `(r, k)`, the row's entry `k`. -/
theorem row_apply (B : FVec Ideal S1x128 .f32) (r : Fin 100000) (k : Fin 128) :
    broadcastInDim S100000x128 ![0, 1] bcast_S1x128_S100000x128_0_1 B (ix2 r k) = B (ix2 (0 : Fin 1) k) := by
  refine broadcastInDim_apply ![0, 1] bcast_S1x128_S100000x128_0_1 B (ix2 r k) (ix2 (0 : Fin 1) k) fun ax => ?_
  match ax with
  | ⟨0, _⟩ => rfl
  | ⟨1, _⟩ => rfl

/-- The host's product of the activated features and the second weights is the second layer, the bias taken as the
    one-row matrix the reference first broadcasts it to. -/
theorem dense_eq (a : FVec Ideal S100000x128 .f32) (b : FVec Ideal S128 .f32) (w : FVec Ideal S128x64 .f32) :
    Host.dotGeneral dot_S100000x128_S128x64_S100000x64_1_0_0_1_n_n none (activated128 a b) w
      = rectifiedDense (R := 100000) (K := 128) (C := 64) zero a (broadcastInDim S1x128 ![1] bcast_S128_S1x128_1 b) w := by
  funext i
  obtain ⟨r, j, rfl⟩ : ∃ (r : Fin 100000) (j : Fin 64), i = ix2 r j := ⟨i 0, i 1, eq_ix2 i⟩
  simp only [Host.dotGeneral]
  rw [Ideal.dotGeneral_apply]
  unfold rectifiedDense dense rectified
  rw [← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 r j) ((contrEquiv1 dot_S100000x128_S128x64_S100000x64_1_0_0_1_n_n 128 rfl rfl).symm k) = ix2 r k := funext fun a => Fin.ext (by
    match a with
    | ⟨0, _⟩ => exact lhs_row _ _
    | ⟨1, _⟩ => exact (lhs_inner _ _).trans hk)
  have er : dot_S100000x128_S128x64_S100000x64_1_0_0_1_n_n.rhsIdx (ix2 r j) ((contrEquiv1 dot_S100000x128_S128x64_S100000x64_1_0_0_1_n_n 128 rfl rfl).symm k) = ix2 k j := funext fun a => Fin.ext (by
    match a with
    | ⟨0, _⟩ => exact (rhs_inner _ _).trans hk
    | ⟨1, _⟩ => exact rhs_col _ _)
  rw [el, er]
  unfold activated128
  show max (a (ix2 r k) + broadcastInDim S100000x128 ![0, 1] bcast_S1x128_S100000x128_0_1 (broadcastInDim S1x128 ![1] bcast_S128_S1x128_1 b) (ix2 r k)) _ * w (ix2 k j) = _
  rw [row_apply]
  rfl

end Second

/-! ## The third product: activated features [100000, 64] by weights [64, 1], plus the output bias -/

namespace Third

theorem lhs_row (i : S100000x1.Idx) (q : dot_S100000x64_S64x1_S100000x1_1_0_0_1_n_n.contr.Idx) :
    (dot_S100000x64_S64x1_S100000x1_1_0_0_1_n_n.lhsIdx i q 0).val = (i 0).val := by
  unfold DotDims.lhsIdx
  rw [dif_neg (show ¬(0 : Fin S100000x64.rank) ∈ dot_S100000x64_S64x1_S100000x1_1_0_0_1_n_n.lhsBatch by decide), dif_pos (show (0 : Fin S100000x64.rank) ∈ dot_S100000x64_S64x1_S100000x1_1_0_0_1_n_n.lhsNonContracting by decide)]
  rfl
theorem lhs_inner (i : S100000x1.Idx) (q : dot_S100000x64_S64x1_S100000x1_1_0_0_1_n_n.contr.Idx) :
    (dot_S100000x64_S64x1_S100000x1_1_0_0_1_n_n.lhsIdx i q 1).val = (q ⟨0, by decide⟩).val :=
  dot_S100000x64_S64x1_S100000x1_1_0_0_1_n_n.lhsIdx_val_of_single rfl i q
theorem rhs_inner (i : S100000x1.Idx) (q : dot_S100000x64_S64x1_S100000x1_1_0_0_1_n_n.contr.Idx) :
    (dot_S100000x64_S64x1_S100000x1_1_0_0_1_n_n.rhsIdx i q 0).val = (q ⟨0, by decide⟩).val :=
  dot_S100000x64_S64x1_S100000x1_1_0_0_1_n_n.rhsIdx_val_of_single rfl i q
theorem rhs_col (i : S100000x1.Idx) (q : dot_S100000x64_S64x1_S100000x1_1_0_0_1_n_n.contr.Idx) :
    (dot_S100000x64_S64x1_S100000x1_1_0_0_1_n_n.rhsIdx i q 1).val = (i 1).val := by
  unfold DotDims.rhsIdx
  rw [dif_neg (show ¬(1 : Fin S64x1.rank) ∈ dot_S100000x64_S64x1_S100000x1_1_0_0_1_n_n.rhsBatch by decide), dif_pos (show (1 : Fin S64x1.rank) ∈ dot_S100000x64_S64x1_S100000x1_1_0_0_1_n_n.rhsNonContracting by decide)]
  rfl

/-- A one-row matrix broadcast down all the rows reads, at `(r, k)`, the row's entry `k`. -/
theorem row_apply (B : FVec Ideal S1x64 .f32) (r : Fin 100000) (k : Fin 64) :
    broadcastInDim S100000x64 ![0, 1] bcast_S1x64_S100000x64_0_1 B (ix2 r k) = B (ix2 (0 : Fin 1) k) := by
  refine broadcastInDim_apply ![0, 1] bcast_S1x64_S100000x64_0_1 B (ix2 r k) (ix2 (0 : Fin 1) k) fun ax => ?_
  match ax with
  | ⟨0, _⟩ => rfl
  | ⟨1, _⟩ => rfl

/-- A one-by-one matrix broadcast down the one column reads its one entry. -/
theorem one_apply (O : FVec Ideal S1x1 .f32) (r : Fin 100000) (j : Fin 1) :
    broadcastInDim S100000x1 ![0, 1] bcast_S1x1_S100000x1_0_1 O (ix2 r j) = O (ix2 (0 : Fin 1) (0 : Fin 1)) := by
  refine broadcastInDim_apply ![0, 1] bcast_S1x1_S100000x1_0_1 O (ix2 r j) (ix2 (0 : Fin 1) (0 : Fin 1)) fun ax => ?_
  match ax with
  | ⟨0, _⟩ => rfl
  | ⟨1, _⟩ => rfl

/-- The host's product of the activated features and the output weights, plus the broadcast output bias, is the last
    layer, the two biases taken as the one-row matrices the reference first broadcasts them to. -/
theorem dense_eq (a : FVec Ideal S100000x64 .f32) (b : FVec Ideal S64 .f32) (w : FVec Ideal S64x1 .f32) (bo : FVec Ideal S1 .f32) :
    addf (Host.dotGeneral dot_S100000x64_S64x1_S100000x1_1_0_0_1_n_n none (activated64 a b) w)
        (broadcastInDim S100000x1 ![0, 1] bcast_S1x1_S100000x1_0_1 (broadcastInDim S1x1 ![1] bcast_S1_S1x1_1 bo))
      = rectifiedDenseOut (R := 100000) (K := 64) (C := 1) zero a (broadcastInDim S1x64 ![1] bcast_S64_S1x64_1 b) w
          (broadcastInDim S1x1 ![1] bcast_S1_S1x1_1 bo) := by
  funext i
  obtain ⟨r, j, rfl⟩ : ∃ (r : Fin 100000) (j : Fin 1), i = ix2 r j := ⟨i 0, i 1, eq_ix2 i⟩
  show Host.dotGeneral dot_S100000x64_S64x1_S100000x1_1_0_0_1_n_n none (activated64 a b) w (ix2 r j)
      + broadcastInDim S100000x1 ![0, 1] bcast_S1x1_S100000x1_0_1 (broadcastInDim S1x1 ![1] bcast_S1_S1x1_1 bo) (ix2 r j) = _
  rw [one_apply]
  unfold rectifiedDenseOut
  refine congrArg (· + (broadcastInDim S1x1 ![1] bcast_S1_S1x1_1 bo) (ix2 (0 : Fin 1) (0 : Fin 1))) ?_
  simp only [Host.dotGeneral]
  rw [Ideal.dotGeneral_apply]
  unfold rectifiedDense dense rectified
  rw [← Equiv.sum_comp (contrEquiv1 dot_S100000x64_S64x1_S100000x1_1_0_0_1_n_n 64 rfl rfl).symm]
  refine Finset.sum_congr rfl fun k _ => ?_
  have hk := contrEquiv1_symm_val dot_S100000x64_S64x1_S100000x1_1_0_0_1_n_n 64 rfl rfl k
  have el : dot_S100000x64_S64x1_S100000x1_1_0_0_1_n_n.lhsIdx (ix2 r j) ((contrEquiv1 dot_S100000x64_S64x1_S100000x1_1_0_0_1_n_n 64 rfl rfl).symm k) = ix2 r k := funext fun a => Fin.ext (by
    match a with
    | ⟨0, _⟩ => exact lhs_row _ _
    | ⟨1, _⟩ => exact (lhs_inner _ _).trans hk)
  have er : dot_S100000x64_S64x1_S100000x1_1_0_0_1_n_n.rhsIdx (ix2 r j) ((contrEquiv1 dot_S100000x64_S64x1_S100000x1_1_0_0_1_n_n 64 rfl rfl).symm k) = ix2 k j := funext fun a => Fin.ext (by
    match a with
    | ⟨0, _⟩ => exact (rhs_inner _ _).trans hk
    | ⟨1, _⟩ => exact rhs_col _ _)
  rw [el, er]
  unfold activated64
  show max (a (ix2 r k) + broadcastInDim S100000x64 ![0, 1] bcast_S1x64_S100000x64_0_1 (broadcastInDim S1x64 ![1] bcast_S64_S1x64_1 b) (ix2 r k)) _ * w (ix2 k j) = _
  rw [row_apply]
  rfl

end Third

end Cert.ReferenceIdeal.DenseRef

end
-- ==== Proof.LibLayout.lean ====
/-
  Keepdims column and row forms, for any element type and any extents.

  Read at coordinates: a vector [a] laid out as a column [a, 1] by a cast, and a column [a, 1] repeated along a second
  axis to [a, b] by a broadcast, both read, at (p, ·), the entry p of what they were given.
  As arrays: a vector cast to a column [a, 1] (to a row [1, a]) is the same array as the vector broadcast along a new
  trailing (leading) unit axis — the two ways a program may spell keepdims.
-/
import Idealize.ShloMosaic.Lib.Pipeline.Value
import Idealize.ShloMosaic.Lib.ValueIdx
import Idealize.ShloMosaic.Lib.ValueLayout

namespace Cert.Layout

open Idealize.ShloMosaic Idealize.ShloMosaic.ValueIdx

variable {α : Type}

/-- An [a] array cast to [a, 1] reads, at (p, u), the operand at p, whatever the unit coordinate u: the row-major
    position of (p, u) in [a, 1] is p·1 + u = p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector laid out as a column by a cast is the vector broadcast along a new trailing unit axis: both read, at
    (p, u), the vector's entry p. -/
theorem col_cast_eq_bcast {a : ℕ} (x : (⟨1, ![a]⟩ : Shape).Idx → α) (h : (⟨1, ![a]⟩ : Shape).ShapeCasts ⟨2, ![a, 1]⟩)
    (dims : Fin 1 → Fin 2) (hd : dims 0 = 0) (h' : (⟨1, ![a]⟩ : Shape).BroadcastsInDim ⟨2, ![a, 1]⟩ dims) :
    shapeCast ⟨2, ![a, 1]⟩ x h = broadcastInDim ⟨2, ![a, 1]⟩ dims h' x := by
  funext i
  obtain ⟨p, u, rfl⟩ : ∃ (p : Fin a) (u : Fin 1), i = ix2 p u := ⟨i 0, i 1, eq_ix2 i⟩
  rw [shapeCast_a_a1_apply]
  symm
  refine broadcastInDim_apply dims h' x (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A vector laid out as a row by a cast is the vector broadcast along a new leading unit axis: both read, at
    (u, p), the vector's entry p. -/
theorem row_cast_eq_bcast {a : ℕ} (x : (⟨1, ![a]⟩ : Shape).Idx → α) (h : (⟨1, ![a]⟩ : Shape).ShapeCasts ⟨2, ![1, a]⟩)
    (dims : Fin 1 → Fin 2) (hd : dims 0 = 1) (h' : (⟨1, ![a]⟩ : Shape).BroadcastsInDim ⟨2, ![1, a]⟩ dims) :
    shapeCast ⟨2, ![1, a]⟩ x h = broadcastInDim ⟨2, ![1, a]⟩ dims h' x := by
  funext i
  obtain ⟨u, p, rfl⟩ : ∃ (u : Fin 1) (p : Fin a), i = ix2 u p := ⟨i 0, i 1, eq_ix2 i⟩
  rw [shapeCast_a_1a_apply]
  symm
  refine broadcastInDim_apply dims h' x (ix2 u p) (ix1 p) fun ax => ?_
  match ax with
  | ⟨0, _⟩ =>
    show p.val = if a = 1 then 0 else (ix2 u p (dims 0)).val
    rw [hd]
    show p.val = if a = 1 then 0 else p.val
    split
    · have := p.isLt; omega
    · rfl

end Cert.Layout
-- ==== Proof.Bridge.lean ====
/-
  The two spellings of the network are one function.
  The kernel's result is the layers of `Layers` around the message passing of `Graph`, with each bias laid out as a
  one-row matrix by a reshape; the reference's is `Graph.network`, products on the host with each bias broadcast to
  one row and then down the rows. A vector reshaped to one row IS the vector broadcast along a new leading unit axis,
  and each host product is the corresponding layer, so the two are equal: no law of arithmetic is used beyond the
  products being the same sums, and nothing is asked of the inputs.
-/
import proofs.«126257_j14542759264928_1_alg».proof.Proof.DenseRef
import proofs.«126257_j14542759264928_1_alg».proof.Proof.LibLayout

set_option maxRecDepth 16384

noncomputable section

namespace Cert.Bridge

open Cert.ReferenceIdeal Cert.ReferenceIdeal.Gen Cert.Layers Cert.Graph Cert.Layout Cert.ReferenceIdeal.DenseRef
open Idealize.ShloMosaic Idealize.ShloMosaic.ValueIdx

/-- The layered form of the network, each bias a reshaped row, is the network on the host. -/
theorem network_eq (x : FVec Ideal S100000x128 .f32) (e : IVec S2x1600000 32) (w1 : FVec Ideal S128x128 .f32) (b1 : FVec Ideal S128 .f32)
    (w2 : FVec Ideal S128x64 .f32) (b2 : FVec Ideal S64 .f32) (wo : FVec Ideal S64x1 .f32) (bo : FVec Ideal S1 .f32)
    (h1 : S128.ShapeCasts S1x128) (h2 : S64.ShapeCasts S1x64) (h3 : S1.ShapeCasts S1x1) :
    rectifiedDenseOut (R := 100000) (K := 64) (C := 1) zero
        (hidden2 (F := Ideal) e
          (rectifiedDense (R := 100000) (K := 128) (C := 64) zero
            (hidden1 (F := Ideal) e (dense (R := 100000) (K := 128) (C := 128) x w1))
            (shapeCast S1x128 b1 h1) w2))
        (shapeCast S1x64 b2 h2) wo (shapeCast S1x1 bo h3)
      = network (F := Ideal) x e w1 b1 w2 b2 wo bo := by
  rw [row_cast_eq_bcast b1 h1 ![1] rfl bcast_S128_S1x128_1, row_cast_eq_bcast b2 h2 ![1] rfl bcast_S64_S1x64_1,
    row_cast_eq_bcast bo h3 ![1] rfl bcast_S1_S1x1_1]
  rw [← First.dense_eq, ← Second.dense_eq, ← Third.dense_eq]
  rfl

end Cert.Bridge

end
-- ==== Proof.lean ====
/-
  A two-layer graph convolution network with a linear head, as a kernel against its reference.
  Both programs compute, from node features `x`, an edge list and three weight matrices with biases:
  a dense layer, a round of message passing (each edge carries its source's features, scaled by
  `deg(src)^(-1/2) · deg(dst)^(-1/2)`, to its destination, self loops included), bias and cut at zero, a second dense
  layer, a second round, bias and cut at zero, and a last dense layer with an output bias. The kernel runs the three
  dense layers as launches over twenty blocks of 5000 rows (the second and third fused with the bias and the cut) and
  leaves the message passing to the host; the reference runs everything on the host.
  Over the extended reals the two results are equal entry by entry: each launch's output array is the same sum of
  products as the reference's product (`Dense0`, `Dense1`, `Dense2` against `DenseRef`), the message passing is the same
  operations on the same index arrays on both sides (`Graph`, read off the kernel's host stretches in `Stretches` and off
  the reference's run in `RefValue`), and a bias reshaped to one row is the bias broadcast to one row (`Bridge`). The
  equality uses no cancellation or distributivity, so the finiteness of the inputs is never opened. The ideal pass
  rewrote nothing, so the idealized kernel is the kernel's own text read over the extended reals.
-/
import proofs.«126257_j14542759264928_1_alg».proof.Defs
import proofs.«126257_j14542759264928_1_alg».proof.Proof.Gen.Kernel
import proofs.«126257_j14542759264928_1_alg».proof.Proof.Gen.Kernel.Skeleton
import proofs.«126257_j14542759264928_1_alg».proof.Proof.Gen.Kernel.Launch
import proofs.«126257_j14542759264928_1_alg».proof.Proof.Gen.Kernel.Points
import proofs.«126257_j14542759264928_1_alg».proof.Proof.Gen.Kernel.Frame
import proofs.«126257_j14542759264928_1_alg».proof.Proof.Gen.KernelIdeal
import proofs.«126257_j14542759264928_1_alg».proof.Proof.Gen.KernelIdeal.Skeleton
import proofs.«126257_j14542759264928_1_alg».proof.Proof.Gen.KernelIdeal.Launch
import proofs.«126257_j14542759264928_1_alg».proof.Proof.Gen.KernelIdeal.Points
import proofs.«126257_j14542759264928_1_alg».proof.Proof.Gen.KernelIdeal.Frame
import proofs.«126257_j14542759264928_1_alg».proof.Proof.Gen.ReferenceIdeal
import proofs.«126257_j14542759264928_1_alg».proof.Proof.Gen.Pre_finite_inputs
import proofs.«126257_j14542759264928_1_alg».proof.Proof.RefRunP
import proofs.«126257_j14542759264928_1_alg».proof.Proof.RefValue
import proofs.«126257_j14542759264928_1_alg».proof.Proof.KernelRun
import proofs.«126257_j14542759264928_1_alg».proof.Proof.KernelValue
import proofs.«126257_j14542759264928_1_alg».proof.Proof.Bridge
import Idealize.ShloMosaic.Adequacy
import Idealize.ShloMosaic.Init

set_option maxRecDepth 16384

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation: there is nothing to preserve. -/
theorem preserves : Cert.preserves_Kernel_KernelIdeal := trivial

/-- From memories agreeing on the arguments both idealized programs run, and end with the same result: the network
    of the arguments. -/
theorem algebraic : Cert.algebraic_KernelIdeal_ReferenceIdeal := by
  intro m ρ m' ρ' _ hagree
  refine ⟨fun c => Cert.KernelIdeal.Gen.W8 m ρ c (Proc.devRef .tc Cert.KernelIdeal.main_v61),
    Cert.KernelIdeal.WholeRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  rw [Cert.ReferenceIdeal.RefValue.result_eq, a0, a1, a2, a3, a4, a5, a6, a7]
  exact ((Cert.KernelIdeal.Walk.result m ρ c).trans (Cert.Bridge.network_eq _ _ _ _ _ _ _ _ _ _ _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
